-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x256x512 .f32) (main_arg1 : FVec F S4x64x512 .f32) (main_arg2 : FVec F S1024x512 .f32) (main_arg3 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x256x512 : Shape := ⟨3, ![4, 256, 512]⟩
abbrev S4x64x512 : Shape := ⟨3, ![4, 64, 512]⟩
abbrev S1024x512 : Shape := ⟨2, ![1024, 512]⟩
abbrev S1024 : Shape := ⟨1, ![1024]⟩
abbrev S4x256x64x1024 : Shape := ⟨4, ![4, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S2048x512 : Shape := ⟨2, ![2048, 512]⟩
abbrev S2048x1024 : Shape := ⟨2, ![2048, 1024]⟩
abbrev S32x64x1024 : Shape := ⟨3, ![32, 64, 1024]⟩
abbrev S1x1x1024 : Shape := ⟨3, ![1, 1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S1024, .f32⟩
  | .hbm, ⟨4, _⟩ => ⟨S1024x512, .bf16⟩
  | .hbm, ⟨5, _⟩ => ⟨S4x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S1024x512, .bf16⟩
  | .local _ .vmem, ⟨5, _⟩ => ⟨S1024, .f32⟩
  | .local _ .vmem, ⟨6, _⟩ => ⟨S1x32x64x1024, .f32⟩
  | .local _ .vmem, ⟨7, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S2048x1024_S32x64x1024 : S2048x1024.ShapeCasts S32x64x1024
  shapeCasts_S1024_S1x1x1024 : S1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S4x256x64x1024.size a
  hwx0_4 : ∀ i : grid0.Coords, EltTy.bits .f32 = 32 ∨ (Rect.block (s := S4x256x64x1024) S1x32x64x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x512 : Shape := ⟨2, ![1024, 512]⟩
abbrev S1024 : Shape := ⟨1, ![1024]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S4x256x64x1024 : Shape := ⟨4, ![4, 256, 64, 1024]⟩
abbrev S1x1x1x1024 : Shape := ⟨4, ![1, 1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S1024, .f32⟩
  | .hbm, ⟨4, _⟩ => ⟨S4x256x1x512, .f32⟩
  | .hbm, ⟨5, _⟩ => ⟨S4x1x64x512, .f32⟩
  | .hbm, ⟨6, _⟩ => ⟨S4x256x64x512, .f32⟩
  | .hbm, ⟨7, _⟩ => ⟨S4x256x64x512, .f32⟩
  | .hbm, ⟨8, _⟩ => ⟨S4x256x64x512, .f32⟩
  | .hbm, ⟨9, _⟩ => ⟨S4x256x64x512, .f32⟩
  | .hbm, ⟨10, _⟩ => ⟨S4x256x64x1024, .f32⟩
  | .hbm, ⟨11, _⟩ => ⟨S1x1x1x1024, .f32⟩
  | .hbm, ⟨12, _⟩ => ⟨S4x256x64x1024, .f32⟩
  | .hbm, ⟨13, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x64x512_S1024x512_S4x256x64x1024_3_1_012_0_n_n_wf : DotDims.WF S4x256x64x512 S1024x512 S4x256x64x1024 [3] [1] [0, 1, 2] [0] [] []

variable [Facts₀]

def dot_S4x256x64x512_S1024x512_S4x256x64x1024_3_1_012_0_n_n : DotDims S4x256x64x512 S1024x512 S4x256x64x1024 where
  lhsContracting := [3]
  rhsContracting := [1]
  lhsNonContracting := [0, 1, 2]
  rhsNonContracting := [0]
  lhsBatch := []
  rhsBatch := []
  wf := dot_S4x256x64x512_S1024x512_S4x256x64x1024_3_1_012_0_n_n_wf

class Facts : Prop extends Facts₀ where

variable [Facts]
-- ==== Proof.LibAxes.lean ====
/-
  Layout operations read at an index given by coordinates, for the shapes a broadcast-add of two matrices over a new
  middle axis and a product over the merged leading axes go through:

  • a MIDDLE unit axis added by a shape cast, `[a, c] → [a, 1, c]` (`shapeCast_ac_a1c_apply`);
  • a broadcast along a middle unit axis, `[a, 1, c] → [a, b, c]` (`broadcastTo_a1c_abc_apply`), and along a
    leading unit axis, `[1, b, c] → [a, b, c]` (`broadcastTo_1bc_abc_apply`);
  • the two leading axes MERGED by a shape cast, `[a, b, c] → [n, c]` with `n = a · b`, and split again,
    `[n, c] → [a, b, c]`: row `r = i · b + j` of the matrix is entry `(i, j)` of the stack
    (`shapeCast_abc_nc_apply`, `shapeCast_nc_abc_apply`); the merged row is passed as its own `Fin n` with the
    equation `r = i · b + j`, so that a literal extent such as `2048` need not be recognised as a product;
  • a vector laid out as `[1, 1, c]` and broadcast to `[a, b, c]` (`shapeCast_c_11c_apply`,
    `broadcastTo_11c_abc_apply`): the bias row added to every entry of a stack of matrices.

  Each is the library's `shapeCast_apply` / `broadcastTo_apply` with the row-major or per-axis arithmetic done,
  for indices written `ix1 … ix3`. Library imports only.
-/
import Idealize.ShloMosaic.Lib.Pipeline.Value
import Idealize.ShloMosaic.Lib.ValueIdx

namespace Cert.LibAxes

open Idealize.ShloMosaic Idealize.ShloMosaic.ValueIdx

variable {α : Type}

/-- An `[a, c]` matrix cast to `[a, 1, c]` reads, at `(i, z, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (z : Fin 1) (k : Fin c) :
    shapeCast ⟨3, ![a, 1, c]⟩ x h (ix3 i z k) = x (ix2 i k) :=
  shapeCast_apply x h _ _ (by
    have hz : z.val = 0 := by omega
    rw [Shape.rowMajor_val_three, Shape.rowMajor_val_two]
    show i.val * c + k.val = (i.val * 1 + z.val) * c + k.val
    rw [hz, Nat.mul_one, Nat.add_zero])

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack cast to an `[n, c]` matrix reads, at row `r = i · b + j` and column `k`, the stack at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to an `[a, b, c]` stack reads, at `(i, j, k)`, the matrix at row `r = i · b + j`,
    column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[c]` vector cast to `[1, 1, c]` reads, at `(z, z', k)`, the vector at `k`. -/
theorem shapeCast_c_11c_apply {c : ℕ} (x : (⟨1, ![c]⟩ : Shape).Idx → α)
    (h : (⟨1, ![c]⟩ : Shape).ShapeCasts ⟨3, ![1, 1, c]⟩) (z z' : Fin 1) (k : Fin c) :
    shapeCast ⟨3, ![1, 1, c]⟩ x h (ix3 z z' k) = x (ix1 k) :=
  shapeCast_apply x h _ _ (by
    have hz : z.val = 0 := by omega
    have hz' : z'.val = 0 := by omega
    rw [Shape.rowMajor_val_three, Shape.rowMajor_val_one]
    show k.val = (z.val * 1 + z'.val) * c + k.val
    rw [hz, hz']
    simp)

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.BodyJoined.lean ====
/-
  The kernel body's stored value read at one entry of its output block. For the block's encoder frame `p < 32`,
  decoder step `u < 64` and vocabulary entry `v < 1024` the body computes

      Σ_{k < 512} tanh (enc_blk[0, p, k] + dec_blk[0, u, k]) · w[v, k]  +  bias[v] :

  the encoder rows get a unit middle axis and are broadcast over the decoder steps, the decoder rows are broadcast
  over the encoder frames, the sum's hyperbolic tangent is laid out as a matrix of 32 · 64 = 2048 rows (row
  `p · 64 + u`), multiplied with the weight matrix contracted along both operands' axis 1 into a zero accumulator,
  split back into `[32, 64, 1024]`, and the bias row is added to every entry. The change of float format before the
  product is the identity on the extended reals.
-/
import proofs.«127004_j19610820674056_1_alg».proof.Proof.Gen.KernelIdeal.Skeleton
import proofs.«127004_j19610820674056_1_alg».proof.Proof.LibAxes
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.LibAxes

/-! ## The product's operand indices: rows of the left operand, rows of the right, the shared column -/

theorem lhs_row (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_row (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The body's matrix product into a zero accumulator, at row `r` and column `v`: the sum over the hidden index of
    the left operand's row `r` times the right operand's row `v`. -/
theorem product_at (lhs : FVec Ideal S2048x512 .bf16) (rhs : FVec Ideal S1024x512 .bf16) (r : Fin 2048) (v : Fin 1024) :
    matmul dot_S2048x512_S1024x512_S2048x1024_1_1_0_0_n_n none lhs rhs (constant S2048x1024 .f32 0x00000000#32) (ix2 r v)
      = ∑ k : Fin 512, lhs (ix2 r k) * rhs (ix2 v k) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r v) ((contrEquiv1 dot_S2048x512_S1024x512_S2048x1024_1_1_0_0_n_n 512 rfl rfl).symm k) = ix2 r k := funext fun a => Fin.ext (by
    match a with
    | ⟨0, _⟩ => exact lhs_row _ _
    | ⟨1, _⟩ => exact (lhs_col _ _).trans hk)
  have er : dot_S2048x512_S1024x512_S2048x1024_1_1_0_0_n_n.rhsIdx (ix2 r v) ((contrEquiv1 dot_S2048x512_S1024x512_S2048x1024_1_1_0_0_n_n 512 rfl rfl).symm k) = ix2 v k := funext fun a => Fin.ext (by
    match a with
    | ⟨0, _⟩ => exact rhs_row _ _
    | ⟨1, _⟩ => exact (rhs_col _ _).trans hk)
  rw [el, er]

/-! ## The hidden activation, as the product's left operand -/

/-- The hyperbolic tangent of a vector, at an entry, is the extended reals' \`tanh\` of the entry. -/
theorem tanh_apply {s : Shape} {φ : FTy} (a : FVec Ideal s φ) (i : s.Idx) : tanh a i = Ideal.tanh (a i) := rfl

/-- Row `r = p · 64 + u`, column `k` of the product's left operand is `tanh (enc_blk[0, p, k] + dec_blk[0, u, k])`. -/
theorem hidden_at (x0 : FVec Ideal S1x32x512 .f32) (x1 : FVec Ideal S1x64x512 .f32) (p : Fin 32) (u : Fin 64) (k : Fin 512)
    (r : Fin 2048) (hr : r.val = p.val * 64 + u.val) :
    truncf .bf16 (shapeCast S2048x512 (tanh (addf
        (broadcastTo S32x64x512 (shapeCast S32x1x512 (shapeCast S32x512 x0 shapeCasts_S1x32x512_S32x512) shapeCasts_S32x512_S32x1x512) broadcasts_S32x1x512_S32x64x512)
        (broadcastTo S32x64x512 (shapeCast S1x64x512 (shapeCast S64x512 x1 shapeCasts_S1x64x512_S64x512) shapeCasts_S64x512_S1x64x512) broadcasts_S1x64x512_S32x64x512)))
      shapeCasts_S32x64x512_S2048x512) bitsLt_bf16_f32 (ix2 r k)
    = Ideal.tanh (x0 (ix3 (0 : Fin 1) p k) + x1 (ix3 (0 : Fin 1) u k)) := by
  rw [truncf_apply, shapeCast_abc_nc_apply _ _ p u k r hr]
  rw [tanh_apply, addf_apply, broadcastTo_a1c_abc_apply, shapeCast_ac_a1c_apply, shapeCast_1ab_ab_apply,
    broadcastTo_1bc_abc_apply, shapeCast_ab_1ab_apply, shapeCast_1ab_ab_apply]

/-! ## The stored value at an entry -/

/-- The body's one stored value at entry `(z, p, u, v)` of the `[1, 32, 64, 1024]` output block. -/
theorem pay_at (x0 : Vec Ideal S1x32x512 .f32) (x1 : Vec Ideal S1x64x512 .f32) (x2 : Vec Ideal S1024x512 .bf16)
    (x3 : Vec Ideal S1024 .f32) (z : Fin 1) (p : Fin 32) (u : Fin 64) (v : Fin 1024) :
    k0_pay1 x0 x1 x2 x3 (ix4 z p u v)
      = (∑ k : Fin 512, Ideal.tanh (x0 (ix3 (0 : Fin 1) p k) + x1 (ix3 (0 : Fin 1) u k)) * x2 (ix2 v k)) + x3 (ix1 v) := by
  have hr : ((⟨p.val * 64 + u.val, by omega⟩ : Fin 2048) : ℕ) = p.val * 64 + u.val := rfl
  unfold k0_pay1
  rw [shapeCast_abc_1abc_apply, addf_apply, shapeCast_nc_abc_apply _ _ p u v ⟨p.val * 64 + u.val, by omega⟩ hr,
    product_at, broadcastTo_11c_abc_apply, shapeCast_c_11c_apply, shapeCast_self]
  refine congrArg (· + x3 (ix1 v)) (Finset.sum_congr rfl fun k _ => ?_)
  rw [hidden_at x0 x1 p u k _ hr]

end Cert.KernelIdeal.Body

end
-- ==== Proof.JoinerSpec.lean ====
/-
  The joint network's output as ONE function of its four argument arrays, entry by entry: for batch `b`, encoder
  frame `t`, decoder step `u` and vocabulary entry `v`,

      out[b, t, u, v] = Σ_{k < 512} tanh (enc[b, t, k] + dec[b, u, k]) · W[v, k]  +  bias[v]

  on the extended reals. Both programs compute exactly this term: the sum in this order of `k`, each product with
  the hidden activation on the left and the weight on the right, the bias added last. Nothing here needs the
  entries to be finite.
-/
import Idealize.ShloMosaic.PureOps.Ideal
import Idealize.ShloMosaic.Lib.ValueIdx

noncomputable section

namespace Cert.Joiner

open Idealize.ShloMosaic Idealize.ShloMosaic.ValueIdx

/-- Entry `(b, t, u, v)` of the joint network's output. -/
def joinedAt (enc : (⟨3, ![4, 256, 512]⟩ : Shape).Idx → EReal) (dec : (⟨3, ![4, 64, 512]⟩ : Shape).Idx → EReal)
    (W : (⟨2, ![1024, 512]⟩ : Shape).Idx → EReal) (bias : (⟨1, ![1024]⟩ : Shape).Idx → EReal)
    (b : Fin 4) (t : Fin 256) (u : Fin 64) (v : Fin 1024) : EReal :=
  (∑ k : Fin 512, Ideal.tanh (enc (ix3 b t k) + dec (ix3 b u k)) * W (ix2 v k)) + bias (ix1 v)

/-- The whole output array. -/
def joined (enc : (⟨3, ![4, 256, 512]⟩ : Shape).Idx → EReal) (dec : (⟨3, ![4, 64, 512]⟩ : Shape).Idx → EReal)
    (W : (⟨2, ![1024, 512]⟩ : Shape).Idx → EReal) (bias : (⟨1, ![1024]⟩ : Shape).Idx → EReal) :
    (⟨4, ![4, 256, 64, 1024]⟩ : Shape).Idx → EReal :=
  fun i => joinedAt enc dec W bias (i 0) (i 1) (i 2) (i 3)

end Cert.Joiner

end
-- ==== Proof.KernelJoined.lean ====
/-
  From the blocks the grid points write back to the whole output array. Grid point `(bb, ti)` of the `4 × 8` grid
  stages the encoder rows `enc[bb, 32·ti + p, ·]` (`p < 32`), all decoder rows `dec[bb, ·, ·]`, the whole weight
  matrix and the whole bias, and writes back the output block `out[bb, 32·ti + p, u, v]`. So what a point writes is
  its block of ONE array, the specification's `joined` of the arrays as the region finds them: entry
  `(0, p, u, v)` of the stored value is the specification's entry `(bb, 32·ti + p, u, v)`, because the staged
  encoder row `p` is array row `32·ti + p` of batch `bb` and the staged decoder, weight and bias blocks are the
  arrays themselves (of batch `bb` for the decoder). The 32 blocks tile the output, so the array ends at `joined`.
  The weight the region finds is the argument after a change of float format, which is the identity on the
  extended reals; the other three arrays are the arguments as launched.
-/
import proofs.«127004_j19610820674056_1_alg».proof.Proof.Gen.KernelIdeal.Value
import proofs.«127004_j19610820674056_1_alg».proof.Proof.BodyJoined
import proofs.«127004_j19610820674056_1_alg».proof.Proof.JoinerSpec

set_option maxRecDepth 16384

noncomputable section

namespace Cert.KernelIdeal.Joined

open Cert.KernelIdeal Cert.KernelIdeal.Gen Idealize.ShloMosaic Idealize.ShloMosaic.TcCoe Idealize.SL.Sem
open Idealize.ShloMosaic.ValueIdx Cert.Joiner
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 32 grid points: the encoder window moves with the output on the batch and
    frame-block axes, the decoder window on the batch axis only, the weight and the bias stay, and the output's block
    index is `(bb, ti, 0, 0)` with `bb ≤ 3`, `ti ≤ 7`. -/
theorem index_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 1) = 0
    ∧ win0_4.index t (2 : Fin 4) = 0
    ∧ win0_4.index t (3 : Fin 4) = 0
    ∧ win0_4.index t (0 : Fin 4) ≤ 3
    ∧ win0_4.index t (1 : Fin 4) ≤ 7 :=
  (by decide +kernel : ∀ t : Fin grid0.N, _)

/-- Every block index `(bb, ti, 0, 0)` is some grid point's. -/
theorem index_onto : ∀ (q0 : Fin 4) (q1 : Fin 8), ∃ t : Fin cfg0.N, win0_4.index t = ![q0.val, q1.val, 0, 0] :=
  (by decide +kernel : ∀ (q0 : Fin 4) (q1 : Fin 8), ∃ t : Fin grid0.N, win0_4.index t = ![q0.val, q1.val, 0, 0])

/-- The specification's entry from any spelling of the four arrays' indices it reads. -/
theorem joinedAt_of_indices (A0 : (⟨3, ![4, 256, 512]⟩ : Shape).Idx → EReal) (A1 : (⟨3, ![4, 64, 512]⟩ : Shape).Idx → EReal)
    (A2 : (⟨2, ![1024, 512]⟩ : Shape).Idx → EReal) (A3 : (⟨1, ![1024]⟩ : Shape).Idx → EReal)
    (b : Fin 4) (f : Fin 256) (u : Fin 64) (v : Fin 1024)
    (a0 : Fin 512 → (⟨3, ![4, 256, 512]⟩ : Shape).Idx) (a1 : Fin 512 → (⟨3, ![4, 64, 512]⟩ : Shape).Idx)
    (a2 : Fin 512 → (⟨2, ![1024, 512]⟩ : Shape).Idx) (a3 : (⟨1, ![1024]⟩ : Shape).Idx)
    (h0 : ∀ k, a0 k = ix3 b f k) (h1 : ∀ k, a1 k = ix3 b u k) (h2 : ∀ k, a2 k = ix2 v k) (h3 : a3 = ix1 v) :
    (∑ k : Fin 512, Ideal.tanh (A0 (a0 k) + A1 (a1 k)) * A2 (a2 k)) + A3 a3 = joinedAt A0 A1 A2 A3 b f u v := by
  subst h3
  simp only [h0, h1, h2]
  rfl

/-- WHAT POINT `t` WRITES BACK is block `t` of `joined` of the arrays as the region finds them. -/
theorem flushed_joined (c : Dev nD) (t : Fin cfg0.N) :
    (dats m 0 c).flushed 4 t
      = ((cfg0.win 4).blk t).view.read (Elt Ideal) (joined (V m c main_arg0) (V m c main_arg1) (V m c main_v0) (V m c main_arg3)) := by
  rw [Value.flushed4]
  unfold out0_4
  rw [View.canon_unit_zero zeros4]
  simp only [View.ld_unit_zero (S := S1x32x512) zeros3, View.ld_unit_zero (S := S1x64x512) zeros3,
    View.ld_unit_zero (S := S1024x512) zeros2, View.ld_unit_zero (S := S1024) zeros1]
  obtain ⟨e00, e01, e02, e10, e11, e12, e20, e21, e30, e42, e43, b0, b1⟩ := index_facts t
  have key : ∀ j : S1x32x64x1024.Idx,
      k0_pay1 (iblk m c 0 t) (iblk m c 1 t) (iblk m c 2 t) (iblk m c 3 t) j
        = joined (V m c main_arg0) (V m c main_arg1) (V m c main_v0) (V m c main_arg3) (((cfg0.win 4).blk t).view.emb j) := by
    intro j
    obtain ⟨z, p, u, v, rfl⟩ : ∃ (z : Fin 1) (p : Fin 32) (u : Fin 64) (v : Fin 1024), j = ix4 z p u v :=
      ⟨j 0, j 1, j 2, j 3, eq_ix4 j⟩
    refine (Body.pay_at (iblk m c 0 t) (iblk m c 1 t) (iblk m c 2 t) (iblk m c 3 t) z p u v).trans ?_
    have hz : z.val = 0 := by omega
    unfold joined
    refine joinedAt_of_indices (V m c main_arg0) (V m c main_arg1) (V m c main_v0) (V m c main_arg3) _ _ _ _
      (fun k => ((cfg0.win 0).blk t).view.emb (ix3 (0 : Fin 1) p k))
      (fun k => ((cfg0.win 1).blk t).view.emb (ix3 (0 : Fin 1) u k))
      (fun k => ((cfg0.win 2).blk t).view.emb (ix2 v k))
      (((cfg0.win 3).blk t).view.emb (ix1 v)) ?_ ?_ ?_ ?_
    · intro k; funext a; apply Fin.ext
      match a with
      | ⟨0, _⟩ => show win0_0.index t (0 : Fin 3) * 1 + 1 * 0 = win0_4.index t (0 : Fin 4) * 1 + 1 * z.val; omega
      | ⟨1, _⟩ => show win0_0.index t (1 : Fin 3) * 32 + 1 * p.val = win0_4.index t (1 : Fin 4) * 32 + 1 * p.val; omega
      | ⟨2, _⟩ => show win0_0.index t (2 : Fin 3) * 512 + 1 * k.val = k.val; omega
    · intro k; funext a; apply Fin.ext
      match a with
      | ⟨0, _⟩ => show win0_1.index t (0 : Fin 3) * 1 + 1 * 0 = win0_4.index t (0 : Fin 4) * 1 + 1 * z.val; omega
      | ⟨1, _⟩ => show win0_1.index t (1 : Fin 3) * 64 + 1 * u.val = win0_4.index t (2 : Fin 4) * 64 + 1 * u.val; omega
      | ⟨2, _⟩ => show win0_1.index t (2 : Fin 3) * 512 + 1 * k.val = k.val; omega
    · intro k; funext a; apply Fin.ext
      match a with
      | ⟨0, _⟩ => show win0_2.index t (0 : Fin 2) * 1024 + 1 * v.val = win0_4.index t (3 : Fin 4) * 1024 + 1 * v.val; omega
      | ⟨1, _⟩ => show win0_2.index t (1 : Fin 2) * 512 + 1 * k.val = k.val; omega
    · funext a; apply Fin.ext
      match a with
      | ⟨0, _⟩ => show win0_3.index t (0 : Fin 1) * 1024 + 1 * v.val = win0_4.index t (3 : Fin 4) * 1024 + 1 * v.val; omega
  exact funext key

/-- An index of the output array is in point `t`'s block iff each coordinate is in the block's range on its axis. -/
theorem mem_block (t : Fin cfg0.N) (i : S4x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v1).slice (win0_4.rect t)).set ↔ _
  rw [View.set_slice_whole, Rect.mem_set_unit]
  exact Iff.rfl

/-- The blocks tile the output: entry `(b, f, u, v)` is in the block of the point with block index `(b, f / 32, 0, 0)`. -/
theorem covered (i : S4x256x64x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := index_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- The weight array the region finds is the weight argument: the one host operation before the region changes its
    float format, the identity on the extended reals. -/
theorem weight_as_found (c : Dev nD) :
    (V m c main_v0 : S1024x512.Idx → EReal) = m ((c : Thread nD τ).loc main_arg2) := by
  have e : (V m c main_v0 : S1024x512.Idx → EReal)
      = truncf (F := Ideal) .bf16 (m ((c : Thread nD τ).loc main_arg2)) bitsLt_bf16_f32 := by
    dsimp only [Gen.V, Gen.hostOps0]; after_results
  rw [e]; rfl

/-- THE OUTPUT ARRAY after the run is the specification of the four arguments as launched. -/
theorem final (c : Dev nD) :
    (dats m 0 c).arrAt 4 cfg0.N
      = joined (m ((c : Thread nD τ).loc main_arg0)) (m ((c : Thread nD τ).loc main_arg1))
          (m ((c : Thread nD τ).loc main_arg2)) (m ((c : Thread nD τ).loc main_arg3)) := by
  rw [(dats m 0 c).arrAt_eq_of_cover 4 _ (fun t _ => flushed_joined m c t) covered,
    V_main_arg0, V_main_arg1, V_main_arg3, weight_as_found]

/-- The kernel's run: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = joined (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Joined

end
-- ==== Proof.RefJoined.lean ====
/-
  The reference computes the joint network's output entry by entry: its broadcasts only re-index the two activations
  (`enc[b, t, k]` does not depend on `u`, `dec[b, u, k]` not on `t`), its `dot_general` contracts the hidden axis
  `k` of the activation with axis 1 of the weight, and the bias, broadcast over the three leading axes, is added last.
  Read at an index this is the specification's term, with `tanh` the extended reals' and the sum over `k < 512`.
-/
import proofs.«127004_j19610820674056_1_alg».proof.Proof.Gen.ReferenceIdeal.Read
import proofs.«127004_j19610820674056_1_alg».proof.Proof.JoinerSpec

noncomputable section

namespace Cert.ReferenceIdeal.RefValue

open Cert.ReferenceIdeal Cert.ReferenceIdeal.Gen Cert.ReferenceIdeal.Read
open Idealize.ShloMosaic Idealize.ShloMosaic.ValueIdx Cert.Joiner

/-- The reference's last stage, as a function of the four argument arrays, is the specification. -/
theorem ref_joined (x0 : (⟨S4x256x512, .f32⟩ : BufTy).Contents (Elt Ideal)) (x1 : (⟨S4x64x512, .f32⟩ : BufTy).Contents (Elt Ideal))
    (x2 : (⟨S1024x512, .f32⟩ : BufTy).Contents (Elt Ideal)) (x3 : (⟨S1024, .f32⟩ : BufTy).Contents (Elt Ideal)) :
    val_main_v9 (F := Ideal) x0 x1 x2 x3 = joined x0 x1 x2 x3 := by
  funext i
  -- the composed index maps of the broadcasts and of the contraction, by coordinates
  have e0 : ∀ k : Fin 512, idx_main_v0 (idx_main_v2 (lidx_main_v6 i k)) = ix3 (i 0 : Fin 4) (i 1 : Fin 256) k :=
    fun k => funext fun a => Fin.ext (by match a with | ⟨0, _⟩ => rfl | ⟨1, _⟩ => rfl | ⟨2, _⟩ => rfl)
  have e1 : ∀ k : Fin 512, idx_main_v1 (idx_main_v3 (lidx_main_v6 i k)) = ix3 (i 0 : Fin 4) (i 2 : Fin 64) k :=
    fun k => funext fun a => Fin.ext (by match a with | ⟨0, _⟩ => rfl | ⟨1, _⟩ => rfl | ⟨2, _⟩ => rfl)
  have e2 : ∀ k : Fin 512, ridx_main_v6 i k = ix2 (i 3 : Fin 1024) k :=
    fun k => funext fun a => Fin.ext (by match a with | ⟨0, _⟩ => rfl | ⟨1, _⟩ => rfl)
  have e3 : idx_main_v7 (idx_main_v8 i) = ix1 (i 3 : Fin 1024) :=
    funext fun a => Fin.ext (by match a with | ⟨0, _⟩ => rfl)
  rw [val_main_v9_apply, val_main_v6_apply, val_main_v8_apply, val_main_v7_apply]
  simp only [val_main_v5_apply, val_main_v4_apply, val_main_v2_apply, val_main_v3_apply, val_main_v0_apply,
    val_main_v1_apply, e0, e1, e2, e3]
  rfl

end Cert.ReferenceIdeal.RefValue

end
-- ==== Proof.lean ====
/-
  The joint network of a transducer, fused into one kernel, against its plain formulation.

  For batch `b`, encoder frame `t`, decoder step `u` and vocabulary entry `v` both programs compute

      out[b, t, u, v] = Σ_{k < 512} tanh (enc[b, t, k] + dec[b, u, k]) · W[v, k]  +  bias[v].

  The kernel runs a `4 × 8` grid; point `(bb, ti)` takes 32 encoder frames of batch `bb` and all 64 decoder steps,
  forms the `32 · 64 = 2048` hidden rows, multiplies them with the whole weight matrix on the matrix unit into a zero
  accumulator and adds the bias; its 32 output blocks tile the result. The reference broadcasts both activations to
  `[4, 256, 64, 512]`, contracts the hidden axis against the weight and adds the broadcast bias. On the extended reals
  the changes of float format around the kernel's product are the identity, both hyperbolic tangents are the same
  function, and both sums run over the hidden index in the same order with the factors in the same order, so the two
  results are the same term entry by entry (`Cert.Joiner.joined`); no entry needs to be finite for that.

  The frames of the two kernel programs and the reference's run are the generated ones; the idealization rewrote no
  operation, so there is nothing to preserve.
-/
import proofs.«127004_j19610820674056_1_alg».proof.Defs
import proofs.«127004_j19610820674056_1_alg».proof.Proof.Gen.Kernel
import proofs.«127004_j19610820674056_1_alg».proof.Proof.Gen.Kernel.Frame
import proofs.«127004_j19610820674056_1_alg».proof.Proof.Gen.KernelIdeal
import proofs.«127004_j19610820674056_1_alg».proof.Proof.Gen.KernelIdeal.Frame
import proofs.«127004_j19610820674056_1_alg».proof.Proof.Gen.KernelIdeal.Value
import proofs.«127004_j19610820674056_1_alg».proof.Proof.Gen.ReferenceIdeal
import proofs.«127004_j19610820674056_1_alg».proof.Proof.Gen.ReferenceIdeal.Run
import proofs.«127004_j19610820674056_1_alg».proof.Proof.Gen.ReferenceIdeal.Read
import proofs.«127004_j19610820674056_1_alg».proof.Proof.Gen.Pre_finite_inputs
import proofs.«127004_j19610820674056_1_alg».proof.Proof.KernelJoined
import proofs.«127004_j19610820674056_1_alg».proof.Proof.RefJoined
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the result array at
    `Σ_k tanh (enc + dec) · W + bias` of those arguments, entry by entry. -/
theorem algebraic : Cert.algebraic_KernelIdeal_ReferenceIdeal := by
  intro m ρ m' ρ' _ hagree
  refine ⟨_, Cert.KernelIdeal.Joined.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_joined,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
